-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S6x64x64 : Shape := ⟨3, ![6, 64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S6x64x64 : S_.BroadcastsInDim S6x64x64 (![] : Fin 0 → Fin S6x64x64.rank)
  reducesTo_S6x64x64_S_d0_1_2 : S6x64x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S6x64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S6x64x64 .f32 := Host.absf main_arg2
  let main_cst_0 : FVec F S_ .f32 := constant S_ .f32 0x7F800000#32
  let main_v5 : FVec F S6x64x64 .f32 := broadcastInDim S6x64x64 ![] bcast_S_S6x64x64 main_cst_0
  let main_v6 : IVec S6x64x64 1 := cmpf .olt main_v4 main_v5
  let main_c_1 : IVec S_ 1 := constantI S_ 1 1#1
  let main_v7 : IVec S_ 1 := (fun x v => Host.reduce IntOp.andi x v reducesTo_S6x64x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S6x64x64 : Shape := ⟨3, ![6, 64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64 : Shape := ⟨2, ![1, 64]⟩
abbrev S4000x64 : Shape := ⟨2, ![4000, 64]⟩
abbrev S1x64x64 : Shape := ⟨3, ![1, 64, 64]⟩
abbrev S64x64 : Shape := ⟨2, ![64, 64]⟩

abbrev nBuf : Space → Nat
  | .hbm => 139
  | .vmem => 16
  | .smem => 0
  | _ => 0

abbrev hbmTy0_0 (i : Nat) : BufTy := match i % 128 with
  | 0 => ⟨S100000x64, .f32⟩
  | 1 => ⟨S2x1600000, .i32⟩
  | 2 => ⟨S6x64x64, .f32⟩
  | 3 => ⟨S64, .f32⟩
  | 4 => ⟨S1x1600000, .i32⟩
  | 5 => ⟨S1600000, .i32⟩
  | 6 => ⟨S1x1600000, .i32⟩
  | 7 => ⟨S1600000, .i32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S100000, .i1⟩
  | 17 => ⟨S100000, .f32⟩
  | 18 => ⟨S_, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S1600000, .f32⟩
  | 41 => ⟨S1600000x1, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x64, .f32⟩
  | 52 => ⟨S1600000x64, .f32⟩
  | 53 => ⟨S_, .f32⟩
  | 54 => ⟨S100000x64, .f32⟩
  | 55 => ⟨S1600000x1, .i32⟩
  | 56 => ⟨S100000x64, .f32⟩
  | 57 => ⟨S1600000x1, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S1600000x64, .f32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S1600000x1, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x64, .f32⟩
  | 87 => ⟨S1600000x64, .f32⟩
  | 88 => ⟨S1600000x64, .f32⟩
  | 89 => ⟨S_, .f32⟩
  | 90 => ⟨S100000x64, .f32⟩
  | 91 => ⟨S1600000x1, .i32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S1600000x1, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x64, .f32⟩
  | 107 => ⟨S1600000x64, .f32⟩
  | 108 => ⟨S1600000x64, .f32⟩
  | 109 => ⟨S_, .f32⟩
  | 110 => ⟨S100000x64, .f32⟩
  | 111 => ⟨S1600000x1, .i32⟩
  | 112 => ⟨S100000x64, .f32⟩
  | 113 => ⟨S_, .f32⟩
  | 114 => ⟨S100000x64, .f32⟩
  | 115 => ⟨S100000x64, .f32⟩
  | 116 => ⟨S100000x64, .f32⟩
  | 117 => ⟨S1600000x1, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .f32⟩
  | 127 => ⟨S1600000x64, .f32⟩
  | _ => ⟨S100000x64, .f32⟩

abbrev hbmTy0_1 (i : Nat) : BufTy := match i % 128 with
  | 0 => ⟨S1600000x64, .f32⟩
  | 1 => ⟨S_, .f32⟩
  | 2 => ⟨S100000x64, .f32⟩
  | 3 => ⟨S1600000x1, .i32⟩
  | 4 => ⟨S100000x64, .f32⟩
  | 5 => ⟨S_, .f32⟩
  | 6 => ⟨S100000x64, .f32⟩
  | 7 => ⟨S100000x64, .f32⟩
  | 8 => ⟨S100000x64, .f32⟩
  | 9 => ⟨S1x64, .f32⟩
  | 10 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S6x64x64, .f32⟩
  | .local _ .vmem, ⟨13, _⟩ => ⟨S1x64, .f32⟩
  | .local _ .vmem, ⟨14, _⟩ => ⟨S4000x64, .f32⟩
  | .local _ .vmem, ⟨15, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_9 : Ref sig .tc := ⟨.hbm, 58, rfl⟩
abbrev main_v43 : Ref sig .tc := ⟨.hbm, 59, rfl⟩
abbrev main_v44 : Ref sig .tc := ⟨.hbm, 60, rfl⟩
abbrev main_c_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_13 : Ref sig .tc := ⟨.hbm, 78, rfl⟩
abbrev main_v59 : Ref sig .tc := ⟨.hbm, 79, rfl⟩
abbrev main_v60 : Ref sig .tc := ⟨.hbm, 80, rfl⟩
abbrev main_c_14 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_17 : Ref sig .tc := ⟨.hbm, 98, rfl⟩
abbrev main_v75 : Ref sig .tc := ⟨.hbm, 99, rfl⟩
abbrev main_v76 : Ref sig .tc := ⟨.hbm, 100, rfl⟩
abbrev main_c_18 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_19 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_20 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_21 : Ref sig .tc := ⟨.hbm, 118, rfl⟩
abbrev main_v91 : Ref sig .tc := ⟨.hbm, 119, rfl⟩
abbrev main_v92 : Ref sig .tc := ⟨.hbm, 120, rfl⟩
abbrev main_c_22 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_23 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_24 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S6x64x64_S1x64x64_0_0_0 : ∀ a, (![0, 0, 0] : Fin 3 → Nat) a + S1x64x64.size a ≤ S6x64x64.size a
  h_S1x64x64 : 0 < S1x64x64.numel
  shapeCasts_S1x64x64_S64x64 : S1x64x64.ShapeCasts S64x64
  shapeCasts_S4000x64_S4000x64 : S4000x64.ShapeCasts S4000x64
  inb_S6x64x64_S1x64x64_1_0_0 : ∀ a, (![1, 0, 0] : Fin 3 → Nat) a + S1x64x64.size a ≤ S6x64x64.size a
  inb_S6x64x64_S1x64x64_2_0_0 : ∀ a, (![2, 0, 0] : Fin 3 → Nat) a + S1x64x64.size a ≤ S6x64x64.size a
  inb_S6x64x64_S1x64x64_3_0_0 : ∀ a, (![3, 0, 0] : Fin 3 → Nat) a + S1x64x64.size a ≤ S6x64x64.size a
  inb_S6x64x64_S1x64x64_4_0_0 : ∀ a, (![4, 0, 0] : Fin 3 → Nat) a + S1x64x64.size a ≤ S6x64x64.size a
  inb_S6x64x64_S1x64x64_5_0_0 : ∀ a, (![5, 0, 0] : Fin 3 → Nat) a + S1x64x64.size a ≤ S6x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .f32 = 32 ∨ (Rect.block (s := S100000x64) S4000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x64x64.size a ≤ S6x64x64.size a
  hwx0_6 : ∀ i : grid0.Coords, EltTy.bits .f32 = 32 ∨ (Rect.block (s := S6x64x64) S6x64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x64.size a ≤ S100000x64.size a
  hwx0_8 : ∀ i : grid0.Coords, EltTy.bits .f32 = 32 ∨ (Rect.block (s := S100000x64) S4000x64.size (cc0_transform_8 i) (hinb0_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v73) S4000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v89) S4000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v105) S4000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S6x64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v106) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v107) S4000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S6x64x64 : Shape := ⟨3, ![6, 64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x64x64 : Shape := ⟨3, ![1, 64, 64]⟩
abbrev S64x64 : Shape := ⟨2, ![64, 64]⟩
abbrev S1600000x64 : Shape := ⟨2, ![1600000, 64]⟩
abbrev S1x64 : Shape := ⟨2, ![1, 64]⟩

abbrev nBuf : Space → Nat
  | .hbm => 166
  | .vmem => 0
  | .smem => 0
  | _ => 0

abbrev hbmTy0_0 (i : Nat) : BufTy := match i % 128 with
  | 0 => ⟨S100000x64, .f32⟩
  | 1 => ⟨S2x1600000, .i32⟩
  | 2 => ⟨S6x64x64, .f32⟩
  | 3 => ⟨S64, .f32⟩
  | 4 => ⟨S1x1600000, .i32⟩
  | 5 => ⟨S1600000, .i32⟩
  | 6 => ⟨S1x1600000, .i32⟩
  | 7 => ⟨S1600000, .i32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S100000, .i1⟩
  | 17 => ⟨S100000, .f32⟩
  | 18 => ⟨S_, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S1600000, .f32⟩
  | 41 => ⟨S1x64x64, .f32⟩
  | 42 => ⟨S64x64, .f32⟩
  | 43 => ⟨S100000x64, .f32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S1x64x64, .f32⟩
  | 61 => ⟨S64x64, .f32⟩
  | 62 => ⟨S100000x64, .f32⟩
  | 63 => ⟨S100000x64, .f32⟩
  | 64 => ⟨S1600000x1, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x64, .f32⟩
  | 74 => ⟨S1600000x64, .f32⟩
  | 75 => ⟨S1600000x64, .f32⟩
  | 76 => ⟨S_, .f32⟩
  | 77 => ⟨S100000x64, .f32⟩
  | 78 => ⟨S1600000x1, .i32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S1x64x64, .f32⟩
  | 85 => ⟨S64x64, .f32⟩
  | 86 => ⟨S100000x64, .f32⟩
  | 87 => ⟨S100000x64, .f32⟩
  | 88 => ⟨S1600000x1, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S1600000x64, .f32⟩
  | 99 => ⟨S1600000x64, .f32⟩
  | 100 => ⟨S_, .f32⟩
  | 101 => ⟨S100000x64, .f32⟩
  | 102 => ⟨S1600000x1, .i32⟩
  | 103 => ⟨S100000x64, .f32⟩
  | 104 => ⟨S_, .f32⟩
  | 105 => ⟨S100000x64, .f32⟩
  | 106 => ⟨S100000x64, .f32⟩
  | 107 => ⟨S100000x64, .f32⟩
  | 108 => ⟨S1x64x64, .f32⟩
  | 109 => ⟨S64x64, .f32⟩
  | 110 => ⟨S100000x64, .f32⟩
  | 111 => ⟨S100000x64, .f32⟩
  | 112 => ⟨S1600000x1, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S1600000x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x64, .f32⟩

abbrev hbmTy0_1 (i : Nat) : BufTy := match i % 128 with
  | 0 => ⟨S_, .f32⟩
  | 1 => ⟨S100000x64, .f32⟩
  | 2 => ⟨S100000x64, .f32⟩
  | 3 => ⟨S100000x64, .f32⟩
  | 4 => ⟨S1x64x64, .f32⟩
  | 5 => ⟨S64x64, .f32⟩
  | 6 => ⟨S100000x64, .f32⟩
  | 7 => ⟨S100000x64, .f32⟩
  | 8 => ⟨S1600000x1, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x64, .f32⟩
  | 18 => ⟨S1600000x64, .f32⟩
  | 19 => ⟨S1600000x64, .f32⟩
  | 20 => ⟨S_, .f32⟩
  | 21 => ⟨S100000x64, .f32⟩
  | 22 => ⟨S1600000x1, .i32⟩
  | 23 => ⟨S100000x64, .f32⟩
  | 24 => ⟨S_, .f32⟩
  | 25 => ⟨S100000x64, .f32⟩
  | 26 => ⟨S100000x64, .f32⟩
  | 27 => ⟨S100000x64, .f32⟩
  | 28 => ⟨S1x64x64, .f32⟩
  | 29 => ⟨S64x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_9 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_13 : Ref sig .tc := ⟨.hbm, 89, rfl⟩
abbrev main_v70 : Ref sig .tc := ⟨.hbm, 90, rfl⟩
abbrev main_v71 : Ref sig .tc := ⟨.hbm, 91, rfl⟩
abbrev main_c_14 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_15 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_16 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_c_17 : Ref sig .tc := ⟨.hbm, 113, rfl⟩
abbrev main_v90 : Ref sig .tc := ⟨.hbm, 114, rfl⟩
abbrev main_v91 : Ref sig .tc := ⟨.hbm, 115, rfl⟩
abbrev main_c_18 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_19 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_20 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_c_21 : Ref sig .tc := ⟨.hbm, 137, rfl⟩
abbrev main_v110 : Ref sig .tc := ⟨.hbm, 138, rfl⟩
abbrev main_v111 : Ref sig .tc := ⟨.hbm, 139, rfl⟩
abbrev main_c_22 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_23 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_24 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_call1_cst : Ref sig .tc := ⟨.hbm, 163, rfl⟩
abbrev main_call1_v0 : Ref sig .tc := ⟨.hbm, 164, rfl⟩
abbrev main_v132 : Ref sig .tc := ⟨.hbm, 165, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S6x64x64_S1x64x64_0_0_0 : S6x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S6x64x64_S1x64x64_1_0_0 : S6x64x64.Slices ![1, 0, 0] S1x64x64
  slices_S6x64x64_S1x64x64_2_0_0 : S6x64x64.Slices ![2, 0, 0] S1x64x64
  slices_S6x64x64_S1x64x64_3_0_0 : S6x64x64.Slices ![3, 0, 0] S1x64x64
  slices_S6x64x64_S1x64x64_4_0_0 : S6x64x64.Slices ![4, 0, 0] S1x64x64
  slices_S6x64x64_S1x64x64_5_0_0 : S6x64x64.Slices ![5, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Combine.lean ====
/-
  The dense stage of a Chebyshev graph convolution of order six.

  Six node-feature arrays T₀ … T₅ of shape [n, 64] (the Chebyshev terms of the scaled graph Laplacian applied to the
  input features), six 64 × 64 weight matrices stacked in one [6, 64, 64] array W, and a bias b of length 64 are
  combined to

      out(r, c) = max( Σ_k Σ_j T_k(r, j) · W(k, j, c) + b(c), 0 ).

  This file states that function on the extended reals, entry by entry, and the two facts about it that the
  comparison of two programs needs: an entry depends on each T_k only through its row r (so a tile of rows computes
  the same entries as the whole array), and a sum that starts from zero is the sum.
-/
import Idealize.ShloMosaic.PureOps.Ideal
import Idealize.ShloMosaic.Lib.ValueIdx

noncomputable section

namespace Cert.Cheb

open Idealize.ShloMosaic Idealize.ShloMosaic.ValueIdx

/-- Node features: n rows of 64 channels. -/
abbrev Feat (n : Nat) : Shape := ⟨2, ![n, 64]⟩
/-- The six weight matrices, stacked. -/
abbrev Wts : Shape := ⟨3, ![6, 64, 64]⟩
/-- The bias, one value per output channel. -/
abbrev Bias : Shape := ⟨1, ![64]⟩

/-- Entry (r, c) of the product of a feature array with the k-th weight matrix: Σ_j T(r, j) · W(k, j, c). -/
def term {n : Nat} (T : FVec Ideal (Feat n) .f32) (W : FVec Ideal Wts .f32) (k : Fin 6) (r : Fin n) (c : Fin 64) : EReal :=
  ∑ j : Fin 64, T (ix2 r j) * W (ix3 k j c)

/-- Entry (r, c) of the combined output, the bias value β = b(c) of the column given:
    max(((((T₀W₀ + T₁W₁) + T₂W₂) + T₃W₃) + T₄W₄) + T₅W₅ + β, 0), the products summed left to right. -/
def combineAt {n : Nat} (T0 T1 T2 T3 T4 T5 : FVec Ideal (Feat n) .f32) (W : FVec Ideal Wts .f32) (β : EReal)
    (r : Fin n) (c : Fin 64) : EReal :=
  max (term T0 W 0 r c + term T1 W 1 r c + term T2 W 2 r c + term T3 W 3 r c + term T4 W 4 r c + term T5 W 5 r c + β) 0

/-- The combined output as one array. -/
def combine {n : Nat} (T0 T1 T2 T3 T4 T5 : FVec Ideal (Feat n) .f32) (W : FVec Ideal Wts .f32)
    (b : FVec Ideal Bias .f32) : FVec Ideal (Feat n) .f32 :=
  fun i => combineAt T0 T1 T2 T3 T4 T5 W (b (ix1 (i 1))) (i 0) (i 1)

/-- The combined output at the entry written by its coordinates. -/
theorem combine_ix2 {n : Nat} (T0 T1 T2 T3 T4 T5 : FVec Ideal (Feat n) .f32) (W : FVec Ideal Wts .f32)
    (b : FVec Ideal Bias .f32) (r : Fin n) (c : Fin 64) :
    combine T0 T1 T2 T3 T4 T5 W b (ix2 r c) = combineAt T0 T1 T2 T3 T4 T5 W (b (ix1 c)) r c := rfl

/-- A one-row array [1, 64] read as a vector of length 64 (a bias kept as a row). -/
def rowVec (v : FVec Ideal (⟨2, ![1, 64]⟩ : Shape) .f32) : FVec Ideal Bias .f32 := fun i => v (ix2 (0 : Fin 1) (i 0))

/-- A product entry reads its feature array only along row r: two arrays (of any heights) that agree on their rows
    r and r' give the same entry. -/
theorem term_congr {n n' : Nat} (T : FVec Ideal (Feat n) .f32) (T' : FVec Ideal (Feat n') .f32) (W : FVec Ideal Wts .f32)
    (k : Fin 6) (r : Fin n) (r' : Fin n') (c : Fin 64) (h : ∀ j : Fin 64, T (ix2 r j) = T' (ix2 r' j)) :
    term T W k r c = term T' W k r' c := by
  unfold term
  exact Finset.sum_congr rfl fun j _ => by rw [h j]

/-- So a combined entry computed from a tile of rows is the entry of the whole arrays at the tile's row. -/
theorem combineAt_congr {n n' : Nat} (T0 T1 T2 T3 T4 T5 : FVec Ideal (Feat n) .f32)
    (T0' T1' T2' T3' T4' T5' : FVec Ideal (Feat n') .f32) (W : FVec Ideal Wts .f32) (β : EReal)
    (r : Fin n) (r' : Fin n') (c : Fin 64)
    (h0 : ∀ j : Fin 64, T0 (ix2 r j) = T0' (ix2 r' j)) (h1 : ∀ j : Fin 64, T1 (ix2 r j) = T1' (ix2 r' j))
    (h2 : ∀ j : Fin 64, T2 (ix2 r j) = T2' (ix2 r' j)) (h3 : ∀ j : Fin 64, T3 (ix2 r j) = T3' (ix2 r' j))
    (h4 : ∀ j : Fin 64, T4 (ix2 r j) = T4' (ix2 r' j)) (h5 : ∀ j : Fin 64, T5 (ix2 r j) = T5' (ix2 r' j)) :
    combineAt T0 T1 T2 T3 T4 T5 W β r c = combineAt T0' T1' T2' T3' T4' T5' W β r' c := by
  unfold combineAt
  rw [term_congr T0 T0' W 0 r r' c h0, term_congr T1 T1' W 1 r r' c h1, term_congr T2 T2' W 2 r r' c h2,
    term_congr T3 T3' W 3 r r' c h3, term_congr T4 T4' W 4 r r' c h4, term_congr T5 T5' W 5 r r' c h5]

/-- A running sum that starts from zero: 0 + t₀ + t₁ + t₂ + t₃ + t₄ + t₅ + β, capped below by 0, is the combined
    entry.  Adding zero changes nothing on the extended reals, infinite values included. -/
theorem combineAt_of_zero_start {n : Nat} (T0 T1 T2 T3 T4 T5 : FVec Ideal (Feat n) .f32) (W : FVec Ideal Wts .f32) (β : EReal)
    (r : Fin n) (c : Fin 64) :
    max (0 + term T0 W 0 r c + term T1 W 1 r c + term T2 W 2 r c + term T3 W 3 r c + term T4 W 4 r c + term T5 W 5 r c + β) 0
      = combineAt T0 T1 T2 T3 T4 T5 W β r c := by
  unfold combineAt
  rw [zero_add]

end Cert.Cheb

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.Reference.lean ====
/-
  The reference computes the combined function.

  After the Chebyshev recurrence has produced the terms T₁ … T₅ from the input features T₀ = x, the reference forms
  x · W₀ + T₁ · W₁ + … + T₅ · W₅ by six whole-array products (the k-th weight matrix is the slice [k, :, :] of the
  stack, reshaped to 64 × 64), adds the bias spread over all rows, and caps below by zero.  On the extended reals a
  product of an [N, 64] array with a 64 × 64 matrix at entry (r, c) is the plain sum Σ_j T(r, j) · W(j, c), so the
  reference's result is, entry by entry, the combined function of Combine.lean applied to x, to the reference's own
  five recurrence stages, to the stack of weights and to the bias.  The recurrence stages themselves are not opened.
-/
import proofs.«162215_j78039555768469_1_alg».proof.Proof.RefReadP
import proofs.«162215_j78039555768469_1_alg».proof.Proof.Combine
import proofs.«162215_j78039555768469_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.Cheb.Ref

open Cert.ReferenceIdeal Cert.ReferenceIdeal.Gen Cert.ReferenceIdeal.ReadP Idealize.ShloMosaic Idealize.ShloMosaic.ValueIdx

/-- The k-th weight matrix: the slice [k, :, :] of the stack reshaped to a matrix reads, at (j, c), the stack at
    (k, j, c). -/
theorem slab_apply (x2 : FVec Ideal S6x64x64 .f32) (k : Nat) (hk : k < 6) (h : S6x64x64.Slices ![k, 0, 0] S1x64x64)
    (j c : Fin 64) :
    shapeCast S64x64 (extractStridedSlice S1x64x64 ![k, 0, 0] x2 h) shapeCasts_S1x64x64_S64x64 (ix2 j c)
      = x2 (ix3 (⟨k, hk⟩ : Fin 6) j c) := by
  refine (shapeCast_1ab_ab_apply _ shapeCasts_S1x64x64_S64x64 j c).trans ?_
  exact extractStridedSlice_apply ![k, 0, 0] x2 h (ix3 (0 : Fin 1) j c) (ix3 (⟨k, hk⟩ : Fin 6) j c) (fun a => match a with
    | ⟨0, _⟩ => by show k = k + 0; omega
    | ⟨1, _⟩ => by show j.val = 0 + j.val; omega
    | ⟨2, _⟩ => by show c.val = 0 + c.val; omega)

/-- A whole feature array times the k-th weight matrix, at entry (r, c), is the product entry of Combine.lean. -/
theorem term_apply (T : FVec Ideal S100000x64 .f32) (x2 : FVec Ideal S6x64x64 .f32) (k : Nat) (hk : k < 6)
    (h : S6x64x64.Slices ![k, 0, 0] S1x64x64) (r : Fin 100000) (c : Fin 64) :
    Host.dotGeneral dot_S100000x64_S64x64_S100000x64_1_0_0_1_n_n none T
        (shapeCast S64x64 (extractStridedSlice S1x64x64 ![k, 0, 0] x2 h) shapeCasts_S1x64x64_S64x64) (ix2 r c)
      = term T x2 (⟨k, hk⟩ : Fin 6) r c := by
  unfold Host.dotGeneral
  refine (Cert.LibPlainDot.dotGeneral_apply dot_S100000x64_S64x64_S100000x64_1_0_0_1_n_n rfl rfl rfl rfl lhs_main_v31_0 rhs_main_v31_1 none _ T _ r c).trans ?_
  unfold term
  exact Finset.sum_congr rfl fun j _ => congrArg (T (ix2 r j) * ·) (slab_apply x2 k hk h j c)

/-- The reference's result stage is the combined function of the features, the reference's five recurrence stages,
    the weights and the bias. -/
theorem result_eq (x0 : FVec Ideal S100000x64 .f32) (x1 : (⟨S2x1600000, .i32⟩ : BufTy).Contents (Elt Ideal))
    (x2 : FVec Ideal S6x64x64 .f32) (x3 : FVec Ideal S64 .f32) :
    val_main_v132 (F := Ideal) x0 x1 x2 x3
      = combine x0 (val_main_v44 (F := Ideal) x0 x1) (val_main_v64 (F := Ideal) x0 x1) (val_main_v84 (F := Ideal) x0 x1)
          (val_main_v104 (F := Ideal) x0 x1) (val_main_v124 (F := Ideal) x0 x1) x2 x3 := by
  funext i
  obtain ⟨r, c, rfl⟩ : ∃ (r : Fin 100000) (c : Fin 64), i = ix2 r c := ⟨i 0, i 1, eq_ix2 i⟩
  rw [combine_ix2]
  unfold combineAt
  refine congrArg₂ max (congrArg₂ (· + ·) (congrArg₂ (· + ·) (congrArg₂ (· + ·) (congrArg₂ (· + ·) (congrArg₂ (· + ·)
    (congrArg₂ (· + ·) ?_ ?_) ?_) ?_) ?_) ?_) ?_) ?_
  · exact term_apply x0 x2 0 (by decide) slices_S6x64x64_S1x64x64_0_0_0 r c
  · exact term_apply (val_main_v44 (F := Ideal) x0 x1) x2 1 (by decide) slices_S6x64x64_S1x64x64_1_0_0 r c
  · exact term_apply (val_main_v64 (F := Ideal) x0 x1) x2 2 (by decide) slices_S6x64x64_S1x64x64_2_0_0 r c
  · exact term_apply (val_main_v84 (F := Ideal) x0 x1) x2 3 (by decide) slices_S6x64x64_S1x64x64_3_0_0 r c
  · exact term_apply (val_main_v104 (F := Ideal) x0 x1) x2 4 (by decide) slices_S6x64x64_S1x64x64_4_0_0 r c
  · exact term_apply (val_main_v124 (F := Ideal) x0 x1) x2 5 (by decide) slices_S6x64x64_S1x64x64_5_0_0 r c
  · rw [val_main_v130_apply, val_main_v129_apply]
    exact congrArg x3 (funext fun a => Fin.ext (match a with | ⟨0, _⟩ => rfl))
  · rw [val_main_call1_v0_apply, val_main_call1_cst_apply]
    exact Ideal.ofBits_zero_f32

end Cert.Cheb.Ref

end
-- ==== Proof.Glue.lean ====
/-
  The two programs run the same Chebyshev recurrence.

  Before its dense stage each program computes, by the same operations in the same order, the edge weights
  w = −d⁻¹ᐟ²(row) · d⁻¹ᐟ²(col) of the scaled Laplacian from the node degrees, and then the terms
  T₁ = L̂ x, T_k = 2 L̂ T_{k−1} − T_{k−2} (k = 2 … 5), each application of L̂ a gather of rows, a scaling by w and a
  scatter-add.  The kernel's program has these five arrays in hand when its dense stage starts; the reference
  interleaves them with its products.  Operation by operation they are the same expressions of the input features x
  and the edge list, so each array the kernel's dense stage finds IS the reference's stage of the same name — nothing
  of the recurrence is opened, no gather, scatter or reciprocal square root is evaluated; the two expressions are
  compared as written.  (The one typed copy on the way, the result of the zero-degree guard, is the identity.)
  The bias reaches the kernel reshaped from [64] to a row [1, 64]; read back as a vector it is the bias.
-/
import proofs.«162215_j78039555768469_1_alg».proof.Proof.Gen.KernelIdeal.Frame
import proofs.«162215_j78039555768469_1_alg».proof.Proof.RefReadP
import proofs.«162215_j78039555768469_1_alg».proof.Proof.Combine
import Idealize.ShloMosaic.Lib.StableHlo.Run
import Idealize.ShloMosaic.Lib.ValueIdx
import Idealize.ShloMosaic.Lib.ValueLayout

noncomputable section

namespace Cert.Cheb.Glue

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

set_option maxRecDepth 65536 in
set_option maxHeartbeats 8000000 in
/-- The first recurrence array the dense stage finds is the reference's T₁ = L̂ x. -/
theorem tx1 (c : Dev nD) :
    (V m c main_v41 : S100000x64.Idx → EReal)
      = Cert.ReferenceIdeal.ReadP.val_main_v44 (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  unfold TRef.toBuf TRef.ofBuf
  repeat rw [cast_eq]
  rfl

set_option maxRecDepth 65536 in
set_option maxHeartbeats 8000000 in
/-- The second is the reference's T₂ = 2 L̂ T₁ − x. -/
theorem tx2 (c : Dev nD) :
    (V m c main_v57 : S100000x64.Idx → EReal)
      = Cert.ReferenceIdeal.ReadP.val_main_v64 (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  unfold TRef.toBuf TRef.ofBuf
  repeat rw [cast_eq]
  rfl

set_option maxRecDepth 65536 in
set_option maxHeartbeats 8000000 in
/-- The third is the reference's T₃ = 2 L̂ T₂ − T₁. -/
theorem tx3 (c : Dev nD) :
    (V m c main_v73 : S100000x64.Idx → EReal)
      = Cert.ReferenceIdeal.ReadP.val_main_v84 (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  unfold TRef.toBuf TRef.ofBuf
  repeat rw [cast_eq]
  rfl

set_option maxRecDepth 65536 in
set_option maxHeartbeats 8000000 in
/-- The fourth is the reference's T₄ = 2 L̂ T₃ − T₂. -/
theorem tx4 (c : Dev nD) :
    (V m c main_v89 : S100000x64.Idx → EReal)
      = Cert.ReferenceIdeal.ReadP.val_main_v104 (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  unfold TRef.toBuf TRef.ofBuf
  repeat rw [cast_eq]
  rfl

set_option maxRecDepth 65536 in
set_option maxHeartbeats 8000000 in
/-- The fifth is the reference's T₅ = 2 L̂ T₄ − T₃. -/
theorem tx5 (c : Dev nD) :
    (V m c main_v105 : S100000x64.Idx → EReal)
      = Cert.ReferenceIdeal.ReadP.val_main_v124 (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  unfold TRef.toBuf TRef.ofBuf
  repeat rw [cast_eq]
  rfl

set_option maxHeartbeats 4000000 in
/-- The bias row the dense stage finds is the bias reshaped to [1, 64]. -/
theorem bias_row (c : Dev nD) :
    (V m c main_v106 : S1x64.Idx → EReal) = shapeCast S1x64 (m ((c : Thread nD τ).loc main_arg3)) shapeCasts_S64_S1x64 := by
  dsimp only [V]
  simp only [hostOps0, hostOps0_1, hostOps0_2, List.flatten_cons, List.flatten_nil, List.append_nil, List.cons_append, List.nil_append]
  after_results_simp
  rfl

/-- Read back as a vector, it is the bias. -/
theorem bias (c : Dev nD) : rowVec (V m c main_v106) = m ((c : Thread nD τ).loc main_arg3) := by
  rw [bias_row]
  funext i
  obtain ⟨q, rfl⟩ : ∃ q : Fin 64, i = ix1 q := ⟨i 0, eq_ix1 i⟩
  exact shapeCast_a_1a_apply _ shapeCasts_S64_S1x64 (0 : Fin 1) q

end Cert.Cheb.Glue

end
-- ==== Proof.Tile.lean ====
/-
  One tile of rows.

  At a grid point the kernel body holds a tile of 4000 rows of each of the six feature arrays, the whole stack of
  weights and the bias as a row.  It adds, starting from zero, the six products tile_k · W_k, then the bias row
  spread over the rows, and caps the result below by zero.  Each product is a matrix product into a zero
  accumulator, so its entry (p, q) is the plain sum Σ_j tile_k(p, j) · W_k(j, q); the k-th weight matrix is the slab
  [k, :, :] of the stack, read as a 64 × 64 matrix; rounding the operands to a shorter float format is the identity
  on the extended reals.  So entry (p, q) of what the body stores is the combined entry (Combine.lean) of the tile's
  own rows, with the bias value of column q.
-/
import proofs.«162215_j78039555768469_1_alg».proof.Proof.Gen.KernelIdeal.Frame
import proofs.«162215_j78039555768469_1_alg».proof.Proof.Combine
import proofs.«162215_j78039555768469_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.Cheb.Tile

open Cert.KernelIdeal Cert.KernelIdeal.Gen Idealize.ShloMosaic Idealize.ShloMosaic.ValueIdx

/-- The offsets of a whole-buffer access are all zero. -/
theorem zero_offsets : (![0, 0] : Fin 2 → Nat) = fun _ => 0 := funext fun a => by fin_cases a <;> rfl

/-! ## One product at an entry -/

/-- The left operand of the tile product is read along the output's row. -/
theorem lhs_row (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl

/-- The right operand is read along the output's column. -/
theorem rhs_col (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl

/-- A 4000 × 64 by 64 × 64 product into the zero accumulator, at entry (p, q): Σ_j L(p, j) · R(j, q). -/
theorem tileDot_apply (L : FVec Ideal S4000x64 .bf16) (R : FVec Ideal S64x64 .bf16) (p : Fin 4000) (q : Fin 64) :
    matmul dot_S4000x64_S64x64_S4000x64_1_0_0_1_n_n none L R (constant (F := Ideal) S4000x64 .f32 0x00000000#32) (ix2 p q)
      = ∑ j : Fin 64, L (ix2 p j) * R (ix2 j q) :=
  Cert.LibPlainDot.matmul_zero_apply dot_S4000x64_S64x64_S4000x64_1_0_0_1_n_n rfl rfl rfl rfl lhs_row rhs_col none L R p q

/-- The k-th weight matrix: the slab [k, :, :] of the stack, loaded as a [1, 64, 64] array and cast to a matrix, reads
    at (j, c) the stack at (k, j, c). -/
theorem slab_apply (x6 : Vec Ideal S6x64x64 .f32) (k : Nat) (hk : k < 6)
    (inb : ∀ a, (![k, 0, 0] : Fin 3 → Nat) a + S1x64x64.size a ≤ S6x64x64.size a) (j c : Fin 64) :
    shapeCast S64x64 (View.ld x6 (Rect.unit (s := S6x64x64) ![k, 0, 0] S1x64x64.size inb)) shapeCasts_S1x64x64_S64x64 (ix2 j c)
      = x6 (ix3 (⟨k, hk⟩ : Fin 6) j c) := by
  refine (shapeCast_1ab_ab_apply _ shapeCasts_S1x64x64_S64x64 j c).trans ?_
  show x6 ((Rect.unit (s := S6x64x64) ![k, 0, 0] S1x64x64.size inb).idx (ix3 (0 : Fin 1) j c)) = _
  refine congrArg x6 (funext fun a => Fin.ext ?_)
  match a with
  | ⟨0, _⟩ => show k + 1 * 0 = k; omega
  | ⟨1, _⟩ => show 0 + 1 * j.val = j.val; omega
  | ⟨2, _⟩ => show 0 + 1 * c.val = c.val; omega

/-- A tile times the k-th weight matrix, both rounded to the shorter format on the way in, at entry (p, q), is the
    product entry of Combine.lean. -/
theorem prod_apply (L : FVec Ideal S4000x64 .f32) (x6 : Vec Ideal S6x64x64 .f32) (k : Nat) (hk : k < 6)
    (inb : ∀ a, (![k, 0, 0] : Fin 3 → Nat) a + S1x64x64.size a ≤ S6x64x64.size a) (p : Fin 4000) (q : Fin 64) :
    matmul dot_S4000x64_S64x64_S4000x64_1_0_0_1_n_n none (truncf .bf16 L bitsLt_bf16_f32)
        (truncf .bf16 (shapeCast S64x64 (View.ld x6 (Rect.unit (s := S6x64x64) ![k, 0, 0] S1x64x64.size inb)) shapeCasts_S1x64x64_S64x64) bitsLt_bf16_f32)
        (constant (F := Ideal) S4000x64 .f32 0x00000000#32) (ix2 p q)
      = term L x6 (⟨k, hk⟩ : Fin 6) p q := by
  refine (tileDot_apply _ _ p q).trans ?_
  unfold term
  refine Finset.sum_congr rfl fun j _ => ?_
  exact congrArg (L (ix2 p j) * ·) (slab_apply x6 k hk inb j q)

/-- The same with the tile passed through a cast to its own shape, which moves nothing. -/
theorem prod_cast_apply (L : FVec Ideal S4000x64 .f32) (x6 : Vec Ideal S6x64x64 .f32) (k : Nat) (hk : k < 6)
    (inb : ∀ a, (![k, 0, 0] : Fin 3 → Nat) a + S1x64x64.size a ≤ S6x64x64.size a) (p : Fin 4000) (q : Fin 64) :
    matmul dot_S4000x64_S64x64_S4000x64_1_0_0_1_n_n none (truncf .bf16 (shapeCast S4000x64 L shapeCasts_S4000x64_S4000x64) bitsLt_bf16_f32)
        (truncf .bf16 (shapeCast S64x64 (View.ld x6 (Rect.unit (s := S6x64x64) ![k, 0, 0] S1x64x64.size inb)) shapeCasts_S1x64x64_S64x64) bitsLt_bf16_f32)
        (constant (F := Ideal) S4000x64 .f32 0x00000000#32) (ix2 p q)
      = term L x6 (⟨k, hk⟩ : Fin 6) p q := by
  rw [shapeCast_self]
  exact prod_apply L x6 k hk inb p q

/-! ## The two parts of the body's arithmetic -/

/-- The first part: zero plus the products of the first four tiles. -/
theorem first_four_apply (v1 v8 v16 v24 : Vec Ideal S4000x64 .f32) (x6 : Vec Ideal S6x64x64 .f32) (p : Fin 4000) (q : Fin 64) :
    k0_pay2 (F := Ideal) v1 (View.ld x6 r0_1) v8 (View.ld x6 r0_2) v16 (View.ld x6 r0_3) v24 (View.ld x6 r0_4) (ix2 p q)
      = 0 + term v1 x6 0 p q + term v8 x6 1 p q + term v16 x6 2 p q + term v24 x6 3 p q := by
  unfold k0_pay2
  refine congrArg₂ (· + ·) (congrArg₂ (· + ·) (congrArg₂ (· + ·) (congrArg₂ (· + ·) ?_ ?_) ?_) ?_) ?_
  · exact Ideal.ofBits_zero_f32
  · exact prod_apply v1 x6 0 (by decide) inb_S6x64x64_S1x64x64_0_0_0 p q
  · exact prod_cast_apply v8 x6 1 (by decide) inb_S6x64x64_S1x64x64_1_0_0 p q
  · exact prod_cast_apply v16 x6 2 (by decide) inb_S6x64x64_S1x64x64_2_0_0 p q
  · exact prod_cast_apply v24 x6 3 (by decide) inb_S6x64x64_S1x64x64_3_0_0 p q

/-- The second part: the running sum plus the products of the last two tiles, plus the bias row spread over the
    rows, capped below by zero. -/
theorem last_two_apply (acc : FVec Ideal S4000x64 .f32) (v32 v40 : Vec Ideal S4000x64 .f32) (x6 : Vec Ideal S6x64x64 .f32)
    (v48 : Vec Ideal S1x64 .f32) (p : Fin 4000) (q : Fin 64) :
    k0_pay1 (F := Ideal) acc v32 (View.ld x6 r0_5) v40 (View.ld x6 r0_6) v48 (ix2 p q)
      = max (acc (ix2 p q) + term v32 x6 4 p q + term v40 x6 5 p q + v48 (ix2 (0 : Fin 1) q)) 0 := by
  unfold k0_pay1
  refine congrArg₂ max (congrArg₂ (· + ·) (congrArg₂ (· + ·) (congrArg₂ (· + ·) rfl ?_) ?_) ?_) ?_
  · exact prod_cast_apply v32 x6 4 (by decide) inb_S6x64x64_S1x64x64_4_0_0 p q
  · exact prod_cast_apply v40 x6 5 (by decide) inb_S6x64x64_S1x64x64_5_0_0 p q
  · exact (broadcastTo_1b_ab_apply _ broadcasts_S1x64_S4000x64 p q).trans (congrFun (shapeCast_self v48 shapeCasts_S1x64_S1x64) _)
  · exact Ideal.ofBits_zero_f32

/-! ## What the body stores -/

/-- Entry (p, q) of the tile the body stores is the combined entry of the six input tiles' rows p, the stack of
    weights and the bias row's value at q. -/
theorem stored_apply (x0 x1 x2 x3 x4 x5 : Vec Ideal S4000x64 .f32) (x6 : Vec Ideal S6x64x64 .f32) (x7 : Vec Ideal S1x64 .f32)
    (p : Fin 4000) (q : Fin 64) :
    out0_8 (F := Ideal) x0 x1 x2 x3 x4 x5 x6 x7 (ix2 p q)
      = combineAt x0 x1 x2 x3 x4 x5 x6 (x7 (ix2 (0 : Fin 1) q)) p q := by
  unfold out0_8
  rw [View.canon_unit_zero zero_offsets]
  simp only [View.ld_unit_zero (S := S4000x64) zero_offsets, View.ld_unit_zero (S := S1x64) zero_offsets]
  refine (last_two_apply _ x4 x5 x6 x7 p q).trans ?_
  rw [first_four_apply x0 x1 x2 x3 x6 p q]
  exact combineAt_of_zero_start x0 x1 x2 x3 x4 x5 x6 (x7 (ix2 (0 : Fin 1) q)) p q

end Cert.Cheb.Tile

end
-- ==== Proof.Blocks.lean ====
/-
  From tiles of rows to the whole output array.

  The grid has 25 points; at point t the output window and the six feature windows all sit on rows
  4000·t … 4000·t + 3999 (all 64 columns), while the stack of weights and the bias row are staged whole at every
  point.  So what point t writes back is, entry by entry, the combined function (Combine.lean) of the six WHOLE
  feature arrays read at the tile's rows: an entry of the combined function depends on the feature arrays only
  through its own row.  The 25 tiles cover all 100000 rows, so after the run the output array is the combined
  function of the arrays as the kernel launch finds them.
-/
import proofs.«162215_j78039555768469_1_alg».proof.Proof.Gen.KernelIdeal.Value
import proofs.«162215_j78039555768469_1_alg».proof.Proof.Tile

noncomputable section

namespace Cert.Cheb.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The output array after the run, as one function of the arrays the launch finds: the combined function of the
    input features, the five recurrence arrays, the stack of weights and the bias row. -/
def G (c : Dev nD) : FVec Ideal S100000x64 .f32 :=
  combine (V m c main_arg0) (V m c main_v41) (V m c main_v57) (V m c main_v73) (V m c main_v89) (V m c main_v105)
    (V m c main_arg2) (rowVec (V m c main_v106))

/-- One stored entry against one entry of the combined function of whole arrays: equal when the column is the same,
    each tile's row agrees with the whole array's row, and the weights and the bias row are the same arrays. -/
theorem point_eq (x0 x1 x2 x3 x4 x5 : Vec Ideal S4000x64 .f32) (x6 : Vec Ideal S6x64x64 .f32) (x7 : Vec Ideal S1x64 .f32)
    (A0 A1 A2 A3 A4 A5 : FVec Ideal S100000x64 .f32) (W : FVec Ideal S6x64x64 .f32) (b : FVec Ideal S1x64 .f32)
    (y : S4000x64.Idx) (i : S100000x64.Idx) (hcol : (i 1).val = (y 1).val)
    (h0 : ∀ j : Fin 64, x0 (ix2 (y 0) j) = A0 (ix2 (i 0) j)) (h1 : ∀ j : Fin 64, x1 (ix2 (y 0) j) = A1 (ix2 (i 0) j))
    (h2 : ∀ j : Fin 64, x2 (ix2 (y 0) j) = A2 (ix2 (i 0) j)) (h3 : ∀ j : Fin 64, x3 (ix2 (y 0) j) = A3 (ix2 (i 0) j))
    (h4 : ∀ j : Fin 64, x4 (ix2 (y 0) j) = A4 (ix2 (i 0) j)) (h5 : ∀ j : Fin 64, x5 (ix2 (y 0) j) = A5 (ix2 (i 0) j))
    (hW : x6 = W) (hb : x7 = b) :
    out0_8 (F := Ideal) x0 x1 x2 x3 x4 x5 x6 x7 y = combine A0 A1 A2 A3 A4 A5 W (rowVec b) i := by
  subst hW hb
  obtain ⟨p, q, rfl⟩ : ∃ (p : Fin 4000) (q : Fin 64), y = ix2 p q := ⟨y 0, y 1, eq_ix2 y⟩
  obtain ⟨r, c, rfl⟩ : ∃ (r : Fin 100000) (c : Fin 64), i = ix2 r c := ⟨i 0, i 1, eq_ix2 i⟩
  have hc : c = q := Fin.ext hcol
  subst hc
  rw [Tile.stored_apply, combine_ix2]
  exact combineAt_congr x0 x1 x2 x3 x4 x5 A0 A1 A2 A3 A4 A5 x6 _ p r c h0 h1 h2 h3 h4 h5

/-- The index maps over the grid: every feature window and the output window sit on the same block of rows and on
    column block 0; the weights and the bias row sit at block 0 throughout; there are at most 25 row blocks. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = win0_8.index t (0 : Fin 2) ∧ win0_2.index t (1 : Fin 2) = 0
    ∧ win0_3.index t (0 : Fin 2) = win0_8.index t (0 : Fin 2) ∧ win0_3.index t (1 : Fin 2) = 0
    ∧ win0_4.index t (0 : Fin 2) = win0_8.index t (0 : Fin 2) ∧ win0_4.index t (1 : Fin 2) = 0
    ∧ win0_5.index t (0 : Fin 2) = win0_8.index t (0 : Fin 2) ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (1 : Fin 2) = 0 ∧ win0_8.index t (0 : Fin 2) ≤ 24 :=
  (by decide +kernel : ∀ t : Fin grid0.N, _)

/-- Every block of rows is some point's. -/
theorem idx_onto : ∀ q0 : Fin 25, ∃ t : Fin cfg0.N, win0_8.index t = ![q0.val, 0] :=
  (by decide +kernel : ∀ q0 : Fin 25, ∃ t : Fin grid0.N, win0_8.index t = ![q0.val, 0])

set_option maxHeartbeats 1000000 in
/-- The tile step for ANY eight arrays in the windows' places: the body's stored tile at point t, computed from the
    blocks the windows cut out of the arrays there, is the tile of the combined function of the WHOLE arrays on the
    point's rows.  Each feature block sits on the output block's rows, the weights and the bias row are whole. -/
theorem tile_of_arrays (t : Fin cfg0.N) (A0 A1 A2 A3 A4 A5 : FVec Ideal S100000x64 .f32) (A6 : FVec Ideal S6x64x64 .f32)
    (A7 : FVec Ideal S1x64 .f32) :
    (cfg0.win 8).cut (grid0.coords t)
        (out0_8 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6) (((cfg0.win 7).blk t).view.read (Elt Ideal) A7))
      = ((cfg0.win 8).blk t).view.read (Elt Ideal) (combine A0 A1 A2 A3 A4 A5 A6 (rowVec A7)) := by
  obtain ⟨e00, e01, e10, e11, e20, e21, e30, e31, e40, e41, e50, e51, e60, e61, e62, e70, e71, e81, e8b⟩ := idx_facts t
  funext y
  refine point_eq (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) (((cfg0.win 5).blk t).view.read (Elt Ideal) A5)
    (((cfg0.win 6).blk t).view.read (Elt Ideal) A6) (((cfg0.win 7).blk t).view.read (Elt Ideal) A7)
    A0 A1 A2 A3 A4 A5 A6 A7 y (((cfg0.win 8).blk t).view.emb y) ?_ ?_ ?_ ?_ ?_ ?_ ?_ ?_ ?_
  · show win0_8.index t (1 : Fin 2) * 64 + 1 * (y 1).val = (y 1).val
    omega
  · intro j
    show A0 (((cfg0.win 0).blk t).view.emb (ix2 (y 0) j)) = A0 (ix2 ((((cfg0.win 8).blk t).view.emb y) 0) j)
    refine congrArg A0 (funext fun a => Fin.ext ?_)
    match a with
    | ⟨0, _⟩ => show win0_0.index t (0 : Fin 2) * 4000 + 1 * (y 0).val = win0_8.index t (0 : Fin 2) * 4000 + 1 * (y 0).val; omega
    | ⟨1, _⟩ => show win0_0.index t (1 : Fin 2) * 64 + 1 * j.val = j.val; omega
  · intro j
    show A1 (((cfg0.win 1).blk t).view.emb (ix2 (y 0) j)) = A1 (ix2 ((((cfg0.win 8).blk t).view.emb y) 0) j)
    refine congrArg A1 (funext fun a => Fin.ext ?_)
    match a with
    | ⟨0, _⟩ => show win0_1.index t (0 : Fin 2) * 4000 + 1 * (y 0).val = win0_8.index t (0 : Fin 2) * 4000 + 1 * (y 0).val; omega
    | ⟨1, _⟩ => show win0_1.index t (1 : Fin 2) * 64 + 1 * j.val = j.val; omega
  · intro j
    show A2 (((cfg0.win 2).blk t).view.emb (ix2 (y 0) j)) = A2 (ix2 ((((cfg0.win 8).blk t).view.emb y) 0) j)
    refine congrArg A2 (funext fun a => Fin.ext ?_)
    match a with
    | ⟨0, _⟩ => show win0_2.index t (0 : Fin 2) * 4000 + 1 * (y 0).val = win0_8.index t (0 : Fin 2) * 4000 + 1 * (y 0).val; omega
    | ⟨1, _⟩ => show win0_2.index t (1 : Fin 2) * 64 + 1 * j.val = j.val; omega
  · intro j
    show A3 (((cfg0.win 3).blk t).view.emb (ix2 (y 0) j)) = A3 (ix2 ((((cfg0.win 8).blk t).view.emb y) 0) j)
    refine congrArg A3 (funext fun a => Fin.ext ?_)
    match a with
    | ⟨0, _⟩ => show win0_3.index t (0 : Fin 2) * 4000 + 1 * (y 0).val = win0_8.index t (0 : Fin 2) * 4000 + 1 * (y 0).val; omega
    | ⟨1, _⟩ => show win0_3.index t (1 : Fin 2) * 64 + 1 * j.val = j.val; omega
  · intro j
    show A4 (((cfg0.win 4).blk t).view.emb (ix2 (y 0) j)) = A4 (ix2 ((((cfg0.win 8).blk t).view.emb y) 0) j)
    refine congrArg A4 (funext fun a => Fin.ext ?_)
    match a with
    | ⟨0, _⟩ => show win0_4.index t (0 : Fin 2) * 4000 + 1 * (y 0).val = win0_8.index t (0 : Fin 2) * 4000 + 1 * (y 0).val; omega
    | ⟨1, _⟩ => show win0_4.index t (1 : Fin 2) * 64 + 1 * j.val = j.val; omega
  · intro j
    show A5 (((cfg0.win 5).blk t).view.emb (ix2 (y 0) j)) = A5 (ix2 ((((cfg0.win 8).blk t).view.emb y) 0) j)
    refine congrArg A5 (funext fun a => Fin.ext ?_)
    match a with
    | ⟨0, _⟩ => show win0_5.index t (0 : Fin 2) * 4000 + 1 * (y 0).val = win0_8.index t (0 : Fin 2) * 4000 + 1 * (y 0).val; omega
    | ⟨1, _⟩ => show win0_5.index t (1 : Fin 2) * 64 + 1 * j.val = j.val; omega
  · funext z
    show A6 (((cfg0.win 6).blk t).view.emb z) = A6 z
    refine congrArg A6 (funext fun a => Fin.ext ?_)
    match a with
    | ⟨0, _⟩ => show win0_6.index t (0 : Fin 3) * 6 + 1 * (z 0).val = (z 0).val; omega
    | ⟨1, _⟩ => show win0_6.index t (1 : Fin 3) * 64 + 1 * (z 1).val = (z 1).val; omega
    | ⟨2, _⟩ => show win0_6.index t (2 : Fin 3) * 64 + 1 * (z 2).val = (z 2).val; omega
  · funext z
    show A7 (((cfg0.win 7).blk t).view.emb z) = A7 z
    refine congrArg A7 (funext fun a => Fin.ext ?_)
    match a with
    | ⟨0, _⟩ => show win0_7.index t (0 : Fin 2) * 1 + 1 * (z 0).val = (z 0).val; omega
    | ⟨1, _⟩ => show win0_7.index t (1 : Fin 2) * 64 + 1 * (z 1).val = (z 1).val; omega

/-- What point t writes back is the tile of G on the point's rows: the tile step at the arrays the launch finds. -/
theorem flushed_eq (c : Dev nD) (t : Fin cfg0.N) :
    (dats m 0 c).flushed 8 t = ((cfg0.win 8).blk t).view.read (Elt Ideal) (G m c) :=
  (Cert.KernelIdeal.Value.flushed8 m c t).trans
    (tile_of_arrays t (V m c main_arg0) (V m c main_v41) (V m c main_v57) (V m c main_v73) (V m c main_v89) (V m c main_v105)
      (V m c main_arg2) (V m c main_v106))

/-- An index of the output array is in point t's block iff each coordinate is in the block's range on its axis. -/
theorem mem_blk (t : Fin cfg0.N) (i : S100000x64.Idx) :
    i ∈ ((cfg0.win 8).blk t).view.set ↔ ∀ a : Fin 2, win0_8.index t a * S4000x64.size a ≤ (i a).val
      ∧ (i a).val < win0_8.index t a * S4000x64.size a + S4000x64.size a := by
  show i ∈ ((View.whole main_v107).slice (win0_8.rect t)).set ↔ _
  rw [View.set_slice_whole, Rect.mem_set_unit]
  exact Iff.rfl

/-- The tiles cover the array: row r lies in the block of rows r / 4000. -/
theorem cover (i : S100000x64.Idx) :
    ∃ t : Fin cfg0.N, (cfg0.win 8).flush t = true ∧ i ∈ ((cfg0.win 8).blk t).view.set := by
  have hi0 : (i 0).val < 100000 := (i 0).isLt
  have hi1 : (i 1).val < 64 := (i 1).isLt
  obtain ⟨t, ht⟩ := idx_onto ⟨(i 0).val / 4000, by omega⟩
  have q0 : win0_8.index t (0 : Fin 2) = (i 0).val / 4000 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 4000 ≤ (i 0).val ∧ (i 0).val < win0_8.index t (0 : Fin 2) * 4000 + 4000; omega
  | ⟨1, _⟩ => show win0_8.index t (1 : Fin 2) * 64 ≤ (i 1).val ∧ (i 1).val < win0_8.index t (1 : Fin 2) * 64 + 64; omega

/-- The output array after the run is G. -/
theorem final (c : Dev nD) : (dats m 0 c).arrAt 8 cfg0.N = G m c :=
  (dats m 0 c).arrAt_eq_of_cover 8 (G m c) (fun t _ => flushed_eq m c t) cover

/-- The kernel's run with its result named: the output array ends at G, the arguments unchanged. -/
theorem run : θ_run defs (onTc (τ := τ) (main (F := Ideal))) ⟨m, fun _ => 0, ρ⟩ fun r => ∀ c : Dev nD,
      r.2.mem ((c : Thread nD τ).loc main_v107) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Cheb.Blocks

end
-- ==== Proof.lean ====
/-
  A Chebyshev graph convolution of order six: the kernel's program against its reference, on the extended reals.

  Both programs compute, from node features x, an edge list, six stacked 64 × 64 weight matrices W and a bias b,

      out = max( x·W₀ + T₁·W₁ + T₂·W₂ + T₃·W₃ + T₄·W₄ + T₅·W₅ + b, 0 ),

  where T₁ = L̂ x and T_k = 2 L̂ T_{k−1} − T_{k−2} are the Chebyshev terms of the scaled graph Laplacian
  L̂ = −D⁻¹ᐟ² A D⁻¹ᐟ².  They compute the recurrence by the same operations (Proof/Glue.lean).  They differ in the
  dense stage: the reference forms six whole-array products and adds them (Proof/Reference.lean), while the kernel's
  program tiles the 100000 rows into 25 tiles of 4000, and on each tile adds the six tile products into a sum started
  at zero, adds the bias row and caps below by zero (Proof/Tile.lean); the tiles cover the array (Proof/Blocks.lean).
  An entry of the result depends on each T_k only through its own row, so tiling changes nothing; starting a sum at
  zero changes nothing; rounding a product's operands to a shorter float format is the identity on the extended
  reals; and a matrix product into a zero accumulator and a whole-array product are the same plain sum.  No law used
  needs the inputs to be finite, so the precondition is never opened.  Both sides are set equal to ONE function,
  `Cert.Cheb.combine` (Proof/Combine.lean), of the same arrays.

  The frames of the two kernel programs are the generated ones; the reference's frame is its run with the result
  dropped.  The idealization rewrote no operation, so `preserves` asks nothing.
-/
import proofs.«162215_j78039555768469_1_alg».proof.Defs
import proofs.«162215_j78039555768469_1_alg».proof.Proof.Gen.Kernel
import proofs.«162215_j78039555768469_1_alg».proof.Proof.Gen.Kernel.Skeleton
import proofs.«162215_j78039555768469_1_alg».proof.Proof.Gen.Kernel.Launch
import proofs.«162215_j78039555768469_1_alg».proof.Proof.Gen.Kernel.Points
import proofs.«162215_j78039555768469_1_alg».proof.Proof.Gen.Kernel.Frame
import proofs.«162215_j78039555768469_1_alg».proof.Proof.Gen.KernelIdeal
import proofs.«162215_j78039555768469_1_alg».proof.Proof.Gen.KernelIdeal.Skeleton
import proofs.«162215_j78039555768469_1_alg».proof.Proof.Gen.KernelIdeal.Launch
import proofs.«162215_j78039555768469_1_alg».proof.Proof.Gen.KernelIdeal.Points
import proofs.«162215_j78039555768469_1_alg».proof.Proof.Gen.KernelIdeal.Frame
import proofs.«162215_j78039555768469_1_alg».proof.Proof.Gen.KernelIdeal.Value
import proofs.«162215_j78039555768469_1_alg».proof.Proof.Gen.ReferenceIdeal
import proofs.«162215_j78039555768469_1_alg».proof.Proof.Gen.Pre_finite_inputs
import proofs.«162215_j78039555768469_1_alg».proof.Proof.RefRunP
import proofs.«162215_j78039555768469_1_alg».proof.Proof.RefReadP
import proofs.«162215_j78039555768469_1_alg».proof.Proof.Combine
import proofs.«162215_j78039555768469_1_alg».proof.Proof.Reference
import proofs.«162215_j78039555768469_1_alg».proof.Proof.Glue
import proofs.«162215_j78039555768469_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- The kernel program's output array, as a function of its arguments: the arrays its dense stage finds are the
    arguments themselves (features, weights), the reference's five recurrence stages of them, and the bias. -/
theorem kernel_output_eq (m : (ℓ : Loc Cert.KernelIdeal.nD Cert.KernelIdeal.τ Cert.KernelIdeal.sig) → Buf (Elt Ideal) ℓ)
    (c : Dev Cert.KernelIdeal.nD) :
    Cert.Cheb.Blocks.G m c
      = Cert.Cheb.combine (m ((c : Thread Cert.KernelIdeal.nD Cert.KernelIdeal.τ).loc Cert.KernelIdeal.main_arg0))
          (Cert.ReferenceIdeal.ReadP.val_main_v44 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
          (Cert.ReferenceIdeal.ReadP.val_main_v64 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
          (Cert.ReferenceIdeal.ReadP.val_main_v84 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
          (Cert.ReferenceIdeal.ReadP.val_main_v104 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
          (Cert.ReferenceIdeal.ReadP.val_main_v124 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  unfold Cert.Cheb.Blocks.G
  rw [Cert.KernelIdeal.Gen.V_main_arg0 m c, Cert.KernelIdeal.Gen.V_main_arg2 m c, Cert.Cheb.Glue.tx1 m c, Cert.Cheb.Glue.tx2 m c,
    Cert.Cheb.Glue.tx3 m c, Cert.Cheb.Glue.tx4 m c, Cert.Cheb.Glue.tx5 m c, Cert.Cheb.Glue.bias m c]

/-- From memories that agree on the arguments both idealized programs run and end with the same result array: the
    combined function of the arguments. -/
theorem algebraic : Cert.algebraic_KernelIdeal_ReferenceIdeal := by
  intro m ρ m' ρ' _ hagree
  refine ⟨fun c => Cert.Cheb.Blocks.G m c, Cert.Cheb.Blocks.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v132_eq, Cert.Cheb.Ref.result_eq, (hagree c).1, (hagree c).2.1, (hagree c).2.2.1, (hagree c).2.2.2]
  exact (kernel_output_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
